-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32x128 : Shape := ⟨3, ![10000, 32, 128]⟩
abbrev S128x128 : Shape := ⟨2, ![128, 128]⟩
abbrev S_ : Shape := ⟨0, ![]⟩

class Facts : Prop where
  bcast_S_S10000x32x128 : S_.BroadcastsInDim S10000x32x128 (![] : Fin 0 → Fin S10000x32x128.rank)
  reducesTo_S10000x32x128_S_d0_1_2 : S10000x32x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x32x128 .f32) (main_arg1 : FVec F S128x128 .f32) : IVec S_ 1 :=
  let main_v0 : FVec F S10000x32x128 .f32 := Host.absf main_arg0
  let main_cst : FVec F S_ .f32 := constant S_ .f32 0x7F800000#32
  let main_v1 : FVec F S10000x32x128 .f32 := broadcastInDim S10000x32x128 ![] bcast_S_S10000x32x128 main_cst
  let main_v2 : IVec S10000x32x128 1 := cmpf .olt main_v0 main_v1
  let main_c : IVec S_ 1 := constantI S_ 1 1#1
  let main_v3 : IVec S_ 1 := (fun x v => Host.reduce IntOp.andi x v reducesTo_S10000x32x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S10000x32x128 : Shape := ⟨3, ![10000, 32, 128]⟩
abbrev S128x128 : Shape := ⟨2, ![128, 128]⟩
abbrev S10000x128 : Shape := ⟨2, ![10000, 128]⟩
abbrev S200x32x128 : Shape := ⟨3, ![200, 32, 128]⟩
abbrev S200x128 : Shape := ⟨2, ![200, 128]⟩

abbrev nBuf : Space → Nat
  | .hbm => 4
  | .vmem => 5
  | .smem => 0
  | _ => 0

abbrev bufTy : (tb : Table) → Fin (tcTables nBuf tb) → BufTy
  | .hbm, ⟨0, _⟩ => ⟨S10000x32x128, .f32⟩
  | .hbm, ⟨1, _⟩ => ⟨S128x128, .f32⟩
  | .hbm, ⟨2, _⟩ => ⟨S128x128, .f32⟩
  | .hbm, ⟨3, _⟩ => ⟨S10000x128, .f32⟩
  | .local _ .vmem, ⟨0, _⟩ => ⟨S200x32x128, .f32⟩
  | .local _ .vmem, ⟨1, _⟩ => ⟨S200x32x128, .f32⟩
  | .local _ .vmem, ⟨2, _⟩ => ⟨S128x128, .f32⟩
  | .local _ .vmem, ⟨3, _⟩ => ⟨S200x128, .f32⟩
  | .local _ .vmem, ⟨4, _⟩ => ⟨S200x128, .f32⟩
  | _, _ => ⟨S10000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128_S128x128_1_0 : S128x128.Transposes [1, 0] S128x128
  inb_S200x32x128_S200x32x128_0_0_0 : ∀ a, (![0, 0, 0] : Fin 3 → Nat) a + S200x32x128.size a ≤ S200x32x128.size a
  h_S200x32x128 : 0 < S200x32x128.numel
  reduces_S200x32x128_S200x128 : S200x32x128.Reduces [1] S200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S200x128_S200x128_0_0 : ∀ a, (![0, 0] : Fin 2 → Nat) a + S200x128.size a ≤ S200x128.size a
  h_S200x128 : 0 < S200x128.numel
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x128.size a ≤ S10000x32x128.size a
  hwx0_0 : ∀ i : grid0.Coords, EltTy.bits .f32 = 32 ∨ (Rect.block (s := S10000x32x128) S200x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)

variable [Facts₀]

def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S200x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x32x128 : Shape := ⟨3, ![10000, 32, 128]⟩
abbrev S128x128 : Shape := ⟨2, ![128, 128]⟩
abbrev S_ : Shape := ⟨0, ![]⟩
abbrev S10000x128 : Shape := ⟨2, ![10000, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x32x128, .f32⟩
  | .hbm, ⟨1, _⟩ => ⟨S128x128, .f32⟩
  | .hbm, ⟨2, _⟩ => ⟨S_, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | _, _ => ⟨S10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  reducesTo_S10000x32x128_S10000x128_d1 : S10000x32x128.ReducesTo [1] S10000x128
  h_S_ : 0 < S_.numel
  transposes_S128x128_S128x128_1_0 : S128x128.Transposes [1, 0] S128x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The function both programs compute, index by index, over the extended reals.

  For a mailbox tensor `msg` of shape [10000, 32, 128] (node, incoming message, feature) and a weight matrix `W` of
  shape [128, 128] stored as [output feature, input feature], the layer is

      out[n, o] = σ( Σ_k ( Σ_d msg[n, d, k] ) · W[o, k] ),      σ(x) = 1 / (1 + e^(-x)),

  the sum of a node's 32 messages, a linear map without bias, and the logistic function. Every sum below is a finite
  sum in the additive monoid of the extended reals, written in one fixed order on both sides, so no law that needs
  finiteness (distributivity, cancellation) is ever used.
-/
import Idealize.ShloMosaic.PureOps.Ideal
import Idealize.ShloMosaic.PureOps.Ideal.Laws
import Idealize.ShloMosaic.PureOps.IdealRules
import Idealize.ShloMosaic.Lib.ValueIdx

noncomputable section

namespace Cert.MailboxLinear

open Idealize.ShloMosaic Idealize.ShloMosaic.ValueIdx

/-- The sum of node `n`'s 32 incoming messages, at input feature `k`. -/
def mailboxSum (msg : (⟨3, ![10000, 32, 128]⟩ : Shape).Idx → EReal) (n : Fin 10000) (k : Fin 128) : EReal :=
  ∑ d : Fin 32, msg (ix3 n d k)

/-- The linear map without bias: output feature `o` of node `n` is the mailbox sum's inner product with row `o`
    of `W` (the weight is stored as [output, input]). -/
def linear (msg : (⟨3, ![10000, 32, 128]⟩ : Shape).Idx → EReal) (W : (⟨2, ![128, 128]⟩ : Shape).Idx → EReal)
    (n : Fin 10000) (o : Fin 128) : EReal :=
  ∑ k : Fin 128, mailboxSum msg n k * W (ix2 o k)

/-- The layer's output: the logistic function of the linear map, at every (node, output feature). -/
def layer (msg : (⟨3, ![10000, 32, 128]⟩ : Shape).Idx → EReal) (W : (⟨2, ![128, 128]⟩ : Shape).Idx → EReal) :
    (⟨2, ![10000, 128]⟩ : Shape).Idx → EReal :=
  fun i => Ideal.logistic (linear msg W (i 0) (i 1))

/-- The single-precision pattern of `1.0` denotes the real number one. -/
theorem one_f32 : Ideal.ofBits .f32 0x3F800000#32 = 1 := IdealRules.sign_bit.ideal_onePat .f32

/-- The logistic function written out with the literal `1.0`: `1 / (1 + e^(-x))` is `σ(x)` on every extended real,
    the infinities included, because `σ` is defined as this quotient. -/
theorem logistic_spelled (x : EReal) :
    Ideal.div (Ideal.ofBits .f32 0x3F800000#32) (Ideal.ofBits .f32 0x3F800000#32 + Ideal.exp (-x)) = Ideal.logistic x := by
  rw [one_f32]; rfl

end Cert.MailboxLinear

end
-- ==== Proof.RefLayer.lean ====
/-
  The reference program computes the layer: its result, read index by index, is `σ(Σ_k (Σ_d msg[n,d,k]) · W[o,k])`.

  The reference sums the mailbox axis starting from the literal `0.0` (which denotes zero, so the start drops out),
  transposes `W` so that the product's right operand at (k, o) is `W[o, k]`, contracts over `k`, and then spells the
  logistic function as `1 / (1 + exp(-x))` with the literal `1.0`.
-/
import proofs.«133697_g43078521979615_cont_9to1c4_412_2_alg».proof.Proof.Gen.ReferenceIdeal.Read
import proofs.«133697_g43078521979615_cont_9to1c4_412_2_alg».proof.Proof.Spec

noncomputable section

namespace Cert.MailboxLinear.Ref

open Cert.ReferenceIdeal Cert.ReferenceIdeal.Read Cert.MailboxLinear
open Idealize.ShloMosaic Idealize.ShloMosaic.ValueIdx

/-- Reading the mailbox sum's operand through the product's left index: entry (n, d, k). -/
theorem msg_index (i : S10000x128.Idx) (k : Fin 128) (d : Fin 32) :
    idx_main_v0 (lidx_main_v2 i k) d = ix3 (i 0) d k :=
  funext fun a => Fin.ext (by match a with | ⟨0, _⟩ => rfl | ⟨1, _⟩ => rfl | ⟨2, _⟩ => rfl)

/-- Reading the transposed weight through the product's right index: entry (o, k) of `W`. -/
theorem weight_index (i : S10000x128.Idx) (k : Fin 128) :
    idx_main_v1 (ridx_main_v2 i k) = ix2 (i 1) k :=
  funext fun a => Fin.ext (by match a with | ⟨0, _⟩ => rfl | ⟨1, _⟩ => rfl)

/-- The reference's last stage is the layer. -/
theorem result_eq (x0 : (⟨S10000x32x128, .f32⟩ : BufTy).Contents (Elt Ideal)) (x1 : (⟨S128x128, .f32⟩ : BufTy).Contents (Elt Ideal)) :
    val_main_v8 (F := Ideal) x0 x1 = layer x0 x1 := by
  funext i
  rw [val_main_v8_apply, val_main_v7_apply, val_main_cst_1_apply, val_main_v6_apply, val_main_v5_apply,
    val_main_cst_0_apply, val_main_v4_apply, val_main_v3_apply, val_main_v2_apply]
  simp only [val_main_v0_apply, val_main_v1_apply, val_main_cst_apply, msg_index, weight_index,
    Ideal.ofBits_def, Ideal.hostDivf_def, Ideal.addf_def, Ideal.hostUnary_exp_def, Ideal.hostNegf_def, Ideal.negf_def,
    Ideal.ofBits_zero_f32, zero_add]
  exact logistic_spelled _

end Cert.MailboxLinear.Ref

end
-- ==== Proof.BlockBody.lean ====
/-
  What the kernel body stores for one block of 200 nodes, read at a (node-in-block, output feature) index.

  The body loads a block `x` of shape [200, 32, 128] of the mailbox tensor and the whole transposed weight `wt` of shape
  [128, 128] (so `wt[k, o] = W[o, k]`), adds the 32 messages of each node, multiplies the [200, 128] sums by `wt` into a
  zero accumulator, and applies the logistic function. At the extended reals:

      stored[p, o] = σ( Σ_k ( Σ_d x[p, d, k] ) · wt[k, o] ).

  The lane sum starts from the additive neutral element, so it is the bare finite sum; the matrix product into the zero
  splat is the bare sum over the contracted axis; the shape cast from [128, 128] to itself is the identity.
-/
import proofs.«133697_g43078521979615_cont_9to1c4_412_2_alg».proof.Proof.Gen.KernelIdeal.Skeleton
import proofs.«133697_g43078521979615_cont_9to1c4_412_2_alg».proof.Proof.Spec
import Idealize.ShloMosaic.Lib.Pipeline.Value
import Idealize.ShloMosaic.Lib.ValueIdx
import Idealize.ShloMosaic.PureOps.Ideal.Laws

noncomputable section

namespace Cert.MailboxLinear.Body

open Cert.KernelIdeal Cert.KernelIdeal.Gen Cert.MailboxLinear
open Idealize.ShloMosaic Idealize.ShloMosaic.ValueIdx

/-- The sum over the message axis of a [200, 32, 128] block, at (node `p`, feature `k`): the 32 entries `x[p, d, k]`. -/
theorem message_sum (x : FVec Ideal S200x32x128 .f32) (h : S200x32x128.Reduces [1] S200x128) (hφ : FKind.Formats .f32)
    (hacc : (0x00000000#32 : BitVec 32) = 0x00000000#32) (p : Fin 200) (k : Fin 128) :
    multiReduction .add [1] S200x128 x 0x00000000#32 h hφ hacc (ix2 p k) = ∑ d : Fin 32, x (ix3 p d k) :=
  (Ideal.multiReduction_add_single x 0x00000000#32 h hφ hacc (ix2 p k)).trans
    (Finset.sum_congr rfl fun d _ => congrArg x (funext fun a => Fin.ext (by
      match a with | ⟨0, _⟩ => rfl | ⟨1, _⟩ => rfl | ⟨2, _⟩ => rfl)))

/-! The product's operand indices at output index `i` and contracted index `q`: the left operand is read at (row of `i`, `q`),
    the right at (`q`, column of `i`). -/

theorem lhs_row (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide),
    dif_pos (show (0 : Fin S200x128.rank) ∈ dot_S200x128_S128x128_S200x128_1_0_0_1_n_n.lhsNonContracting by decide)]
  rfl
theorem lhs_contr (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_contr (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_col (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide),
    dif_pos (show (1 : Fin S128x128.rank) ∈ dot_S200x128_S128x128_S200x128_1_0_0_1_n_n.rhsNonContracting by decide)]
  rfl

/-- A [200, 128] by [128, 128] product into the zero splat, at (`p`, `o`): `Σ_k a[p, k] · b[k, o]`. -/
theorem product_apply (a : FVec Ideal S200x128 .f32) (b : FVec Ideal S128x128 .f32) (p : Fin 200) (o : Fin 128) :
    matmul dot_S200x128_S128x128_S200x128_1_0_0_1_n_n none a b (constant S200x128 .f32 0x00000000#32) (ix2 p o)
      = ∑ k : Fin 128, a (ix2 p k) * b (ix2 k o) := by
  refine (Ideal.matmul_constant_zero_apply dot_S200x128_S128x128_S200x128_1_0_0_1_n_n none a b (ix2 p o)).trans ?_
  rw [← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p o)
      ((contrEquiv1 dot_S200x128_S128x128_S200x128_1_0_0_1_n_n 128 rfl rfl).symm k) = ix2 p k :=
    funext fun c => Fin.ext (by
      match c with
      | ⟨0, _⟩ => exact lhs_row _ _
      | ⟨1, _⟩ => exact (lhs_contr _ _).trans hk)
  have er : dot_S200x128_S128x128_S200x128_1_0_0_1_n_n.rhsIdx (ix2 p o)
      ((contrEquiv1 dot_S200x128_S128x128_S200x128_1_0_0_1_n_n 128 rfl rfl).symm k) = ix2 k o :=
    funext fun c => Fin.ext (by
      match c with
      | ⟨0, _⟩ => exact (rhs_contr _ _).trans hk
      | ⟨1, _⟩ => exact rhs_col _ _)
  rw [el, er]

/-- THE STORED BLOCK at (node `p` of the block, output feature `o`): the logistic function of the node's summed messages
    times column `o` of the transposed weight. -/
theorem stored_apply (x : FVec Ideal S200x32x128 .f32) (wt : FVec Ideal S128x128 .f32) (p : Fin 200) (o : Fin 128) :
    k0_pay1 (F := Ideal) x wt (ix2 p o) = Ideal.logistic (∑ k : Fin 128, (∑ d : Fin 32, x (ix3 p d k)) * wt (ix2 k o)) := by
  unfold k0_pay1
  show Ideal.logistic (matmul (F := Ideal) dot_S200x128_S128x128_S200x128_1_0_0_1_n_n none _ _ (constant (F := Ideal) S200x128 .f32 0x00000000#32) (ix2 p o)) = _
  refine congrArg Ideal.logistic ((product_apply _ _ p o).trans (Finset.sum_congr rfl fun k _ => ?_))
  rw [shapeCast_self]
  exact congrArg (· * wt (ix2 k o)) (message_sum x _ _ _ p k)

/-- So, when the loaded block's node `p` is node `i 0` of the mailbox tensor and the loaded weight's column `o` is row
    `i 1` of `W`, the stored entry is the layer's output at `i`. -/
theorem stored_is_layer (msg : (⟨3, ![10000, 32, 128]⟩ : Shape).Idx → EReal) (W : (⟨2, ![128, 128]⟩ : Shape).Idx → EReal)
    (x : FVec Ideal S200x32x128 .f32) (wt : FVec Ideal S128x128 .f32) (p : Fin 200) (o : Fin 128)
    (i : (⟨2, ![10000, 128]⟩ : Shape).Idx)
    (hx : ∀ (d : Fin 32) (k : Fin 128), x (ix3 p d k) = msg (ix3 (i 0) d k))
    (hw : ∀ k : Fin 128, wt (ix2 k o) = W (ix2 (i 1) k)) :
    k0_pay1 (F := Ideal) x wt (ix2 p o) = layer msg W i := by
  rw [stored_apply]
  unfold layer linear mailboxSum
  refine congrArg Ideal.logistic (Finset.sum_congr rfl fun k _ => ?_)
  rw [hw k]
  exact congrArg (· * W (ix2 (i 1) k)) (Finset.sum_congr rfl fun d _ => hx d k)

end Cert.MailboxLinear.Body

end
-- ==== Proof.NodeBlocks.lean ====
/-
  From blocks to the whole array: after the kernel's run the result array holds the layer's output at every index.

  The grid has 50 points; point `t` reads nodes `200·t … 200·t + 199` of the mailbox tensor (all 32 messages, all 128
  features), reads the whole transposed weight (which the host wrote before the region: its entry (k, o) is `W[o, k]`),
  and writes rows `200·t … 200·t + 199` of the result. So what point `t` writes back is block `t` of the layer's
  output, and the 50 row blocks cover the [10000, 128] array: row `r` lies in the block of point `r / 200`.
-/
import proofs.«133697_g43078521979615_cont_9to1c4_412_2_alg».proof.Proof.Gen.KernelIdeal.Value
import proofs.«133697_g43078521979615_cont_9to1c4_412_2_alg».proof.Proof.BlockBody
import Idealize.ShloMosaic.Lib.Pipeline.Value
import Idealize.ShloMosaic.Lib.StableHlo.Run
import Idealize.ShloMosaic.Lib.Tactic

noncomputable section

namespace Cert.MailboxLinear.Blocks

open Cert.KernelIdeal Cert.KernelIdeal.Gen Cert.MailboxLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices of the three windows at grid point `t`: the mailbox and result windows move along the node axis
    with `t`, every other axis stays at block 0, and the weight window never moves. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weight window's array, as the region finds it, is the transpose the host wrote. -/
theorem weight_staged (c : Dev nD) :
    (V m c main_v0 : S128x128.Idx → EReal)
      = transpose S128x128 [1, 0] (m ((c : Thread nD τ).loc main_arg1)) transposes_S128x128_S128x128_1_0 := by
  dsimp only [Gen.V, Gen.hostOps0]; after_results

/-- The mailbox block at point `t`: its node `p` is node `n` of the tensor whenever `n = 200·t + p`. -/
theorem mailbox_block (c : Dev nD) (t : Fin cfg0.N) (p : Fin 200) (d : Fin 32) (k : Fin 128) (n : Fin 10000)
    (hn : n.val = 200 * t.val + p.val) :
    (iblk m c 0 t : Vec Ideal S200x32x128 .f32) (ix3 p d k)
      = (m ((c : Thread nD τ).loc main_arg0) : S10000x32x128.Idx → EReal) (ix3 n d k) := by
  obtain ⟨e0, e1, e2, -, -, -, -⟩ := block_indices t
  unfold iblk
  rw [View.read_apply]
  show V m c main_arg0 _ = _
  rw [V_main_arg0 m c]
  refine congrArg _ (funext fun a => Fin.ext ?_)
  match a with
  | ⟨0, _⟩ => show win0_0.index t (0 : Fin 3) * 200 + 1 * p.val = n.val; omega
  | ⟨1, _⟩ => show win0_0.index t (1 : Fin 3) * 32 + 1 * d.val = d.val; omega
  | ⟨2, _⟩ => show win0_0.index t (2 : Fin 3) * 128 + 1 * k.val = k.val; omega

/-- The weight block at any point is the whole transposed weight: its entry (k, o) is `W[o, k]`. -/
theorem weight_block (c : Dev nD) (t : Fin cfg0.N) (k o : Fin 128) :
    (iblk m c 1 t : Vec Ideal S128x128 .f32) (ix2 k o)
      = (m ((c : Thread nD τ).loc main_arg1) : S128x128.Idx → EReal) (ix2 o k) := by
  obtain ⟨-, -, -, e3, e4, -, -⟩ := block_indices t
  unfold iblk
  rw [View.read_apply]
  show V m c main_v0 _ = _
  rw [weight_staged m c]
  refine transpose_apply [1, 0] _ transposes_S128x128_S128x128_1_0 _ (ix2 o k) (fun b => ?_)
  match b with
  | ⟨0, _⟩ => show k.val = win0_1.index t (0 : Fin 2) * 128 + 1 * k.val; omega
  | ⟨1, _⟩ => show o.val = win0_1.index t (1 : Fin 2) * 128 + 1 * o.val; omega

/-- WHAT POINT `t` WRITES BACK is block `t` of the layer's output on the argument arrays. -/
theorem flushed_eq (c : Dev nD) (t : Fin cfg0.N) :
    (dats m 0 c).flushed 2 t = ((cfg0.win 2).blk t).view.read (Elt Ideal)
      (layer (m ((c : Thread nD τ).loc main_arg0)) (m ((c : Thread nD τ).loc main_arg1))) := by
  rw [Cert.KernelIdeal.Value.flushed2]
  unfold out0_2
  rw [View.canon_unit_zero zero2]
  simp only [View.ld_unit_zero (S := S200x32x128) zero3, View.ld_unit_zero (S := S128x128) zero2]
  obtain ⟨-, -, -, -, -, e5, e6⟩ := block_indices t
  funext j
  show k0_pay1 (F := Ideal) (iblk m c 0 t) (iblk m c 1 t) j
      = layer (m ((c : Thread nD τ).loc main_arg0)) (m ((c : Thread nD τ).loc main_arg1)) (((cfg0.win 2).blk t).view.emb j)
  have h0 : ((((cfg0.win 2).blk t).view.emb j) 0).val = 200 * t.val + (j 0).val := by
    show win0_2.index t (0 : Fin 2) * 200 + 1 * (j 0).val = _; omega
  have h1 : ((((cfg0.win 2).blk t).view.emb j) 1).val = (j 1).val := by
    show win0_2.index t (1 : Fin 2) * 128 + 1 * (j 1).val = _; omega
  refine (congrArg (k0_pay1 (F := Ideal) (iblk m c 0 t) (iblk m c 1 t)) (eq_ix2 j)).trans ?_
  refine Body.stored_is_layer (m ((c : Thread nD τ).loc main_arg0)) (m ((c : Thread nD τ).loc main_arg1))
    (iblk m c 0 t) (iblk m c 1 t) (j 0) (j 1) (((cfg0.win 2).blk t).view.emb j) (fun d k => ?_) (fun k => ?_)
  · exact mailbox_block m c t (j 0) d k _ h0
  · refine (weight_block m c t k (j 1)).trans (congrArg _ ?_)
    exact funext fun a => Fin.ext (by match a with | ⟨0, _⟩ => exact h1.symm | ⟨1, _⟩ => rfl)

/-- An index of the result array is in point `t`'s block iff each coordinate is in the block's range on its axis. -/
theorem mem_block (t : Fin cfg0.N) (i : S10000x128.Idx) :
    i ∈ ((cfg0.win 2).blk t).view.set ↔ ∀ a : Fin 2, win0_2.index t a * S200x128.size a ≤ (i a).val
      ∧ (i a).val < win0_2.index t a * S200x128.size a + S200x128.size a := by
  show i ∈ ((View.whole main_v1).slice (win0_2.rect t)).set ↔ _
  rw [View.set_slice_whole, Rect.mem_set_unit]
  exact Iff.rfl

/-- THE COVER: row `r` of the result lies in the block of point `r / 200`, and every point writes back. -/
theorem covered (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 50 := N_0
  let t : Fin cfg0.N := ⟨(i 0).val / 200, by rw [hN]; omega⟩
  have ht : t.val = (i 0).val / 200 := rfl
  obtain ⟨-, -, -, -, -, e5, e6⟩ := block_indices t
  refine ⟨t, flush0_2 t, ?_⟩
  rw [mem_block]
  intro a
  match a with
  | ⟨0, _⟩ =>
    show win0_2.index t (0 : Fin 2) * 200 ≤ (i 0).val ∧ (i 0).val < win0_2.index t (0 : Fin 2) * 200 + 200
    omega
  | ⟨1, _⟩ =>
    show win0_2.index t (1 : Fin 2) * 128 ≤ (i 1).val ∧ (i 1).val < win0_2.index t (1 : Fin 2) * 128 + 128
    omega

/-- THE ARRAY after the run is the layer's output on the argument arrays. -/
theorem final (c : Dev nD) :
    (dats m 0 c).arrAt 2 cfg0.N = layer (m ((c : Thread nD τ).loc main_arg0)) (m ((c : Thread nD τ).loc main_arg1)) :=
  (dats m 0 c).arrAt_eq_of_cover 2 _ (fun t _ => flushed_eq m c t) covered

/-- The kernel's run, read: the result array at the layer's output, the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.MailboxLinear.Blocks

end
-- ==== Proof.lean ====
/-
  A graph layer over a degree bucket: for a mailbox tensor `msg` [10000, 32, 128] and a weight `W` [128, 128] stored as
  [output feature, input feature],

      out[n, o] = σ( Σ_k ( Σ_d msg[n, d, k] ) · W[o, k] ),      σ(x) = 1 / (1 + e^(-x)).

  The kernel walks the nodes in 50 blocks of 200: each grid point sums a block's 32 messages per node, multiplies the
  [200, 128] sums by the transposed weight into a zero accumulator, applies the logistic function and writes the block's
  200 rows of the result. The reference sums the whole tensor over the message axis, multiplies by the transposed weight
  and spells the logistic function as `1 / (1 + exp(-x))`.

  At the extended reals the two are one function, index by index (`Cert.MailboxLinear.layer`, Proof/Spec.lean): both sums
  run over the same index sets in the same order, the literal `0.0` each sum starts from denotes zero, a matrix product
  into a zero accumulator is the bare sum over the contracted axis, and the logistic function IS the quotient the
  reference spells, the infinities included. No step uses a law that needs finite inputs, so the precondition is never
  opened.

  Proof/RefLayer.lean reads the reference's run as the layer; Proof/BlockBody.lean reads one stored block at an index;
  Proof/NodeBlocks.lean shows that point `t` writes block `t` of the layer's output and that the blocks cover the array.
  The three frames are the programs' runs with the result dropped; the idealization rewrote nothing, so that conjunct is
  `True`.
-/
import proofs.«133697_g43078521979615_cont_9to1c4_412_2_alg».proof.Defs
import proofs.«133697_g43078521979615_cont_9to1c4_412_2_alg».proof.Proof.Gen.Kernel
import proofs.«133697_g43078521979615_cont_9to1c4_412_2_alg».proof.Proof.Gen.Kernel.Skeleton
import proofs.«133697_g43078521979615_cont_9to1c4_412_2_alg».proof.Proof.Gen.Kernel.Launch
import proofs.«133697_g43078521979615_cont_9to1c4_412_2_alg».proof.Proof.Gen.Kernel.Points
import proofs.«133697_g43078521979615_cont_9to1c4_412_2_alg».proof.Proof.Gen.Kernel.Frame
import proofs.«133697_g43078521979615_cont_9to1c4_412_2_alg».proof.Proof.Gen.KernelIdeal
import proofs.«133697_g43078521979615_cont_9to1c4_412_2_alg».proof.Proof.Gen.KernelIdeal.Skeleton
import proofs.«133697_g43078521979615_cont_9to1c4_412_2_alg».proof.Proof.Gen.KernelIdeal.Launch
import proofs.«133697_g43078521979615_cont_9to1c4_412_2_alg».proof.Proof.Gen.KernelIdeal.Points
import proofs.«133697_g43078521979615_cont_9to1c4_412_2_alg».proof.Proof.Gen.KernelIdeal.Frame
import proofs.«133697_g43078521979615_cont_9to1c4_412_2_alg».proof.Proof.Gen.ReferenceIdeal
import proofs.«133697_g43078521979615_cont_9to1c4_412_2_alg».proof.Proof.Gen.Pre_finite_inputs
import proofs.«133697_g43078521979615_cont_9to1c4_412_2_alg».proof.Proof.Gen.KernelIdeal.Value
import proofs.«133697_g43078521979615_cont_9to1c4_412_2_alg».proof.Proof.Gen.ReferenceIdeal.Run
import proofs.«133697_g43078521979615_cont_9to1c4_412_2_alg».proof.Proof.Gen.ReferenceIdeal.Read
import proofs.«133697_g43078521979615_cont_9to1c4_412_2_alg».proof.Proof.RefLayer
import proofs.«133697_g43078521979615_cont_9to1c4_412_2_alg».proof.Proof.NodeBlocks
import Idealize.ShloMosaic.Adequacy
import Idealize.ShloMosaic.Init

noncomputable section

namespace Cert.Proof

open Idealize.ShloMosaic Idealize.SL.Sem Cert.Kernel

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `msg` and `W`, the kernel's result array ends at the layer's output (the 50 row blocks,
    each the layer on its 200 nodes) and the reference's at its composed term, which read index by index is the same
    layer. -/
theorem algebraic : Cert.algebraic_KernelIdeal_ReferenceIdeal := by
  intro m ρ m' ρ' _ hagree
  refine ⟨_, Cert.MailboxLinear.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.MailboxLinear.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
